-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x16 : Shape := ⟨2, ![2097152, 16]⟩
abbrev S13 : Shape := ⟨1, ![13]⟩
abbrev S_ : Shape := ⟨0, ![]⟩

class Facts : Prop where
  bcast_S_S2097152x16 : S_.BroadcastsInDim S2097152x16 (![] : Fin 0 → Fin S2097152x16.rank)
  reducesTo_S2097152x16_S_d0_1 : S2097152x16.ReducesTo [0, 1] S_
  h_S_ : 0 < S_.numel
  bcast_S_S13 : S_.BroadcastsInDim S13 (![] : Fin 0 → Fin S13.rank)
  reducesTo_S13_S_d0 : S13.ReducesTo [0] S_

variable [Facts]

def fn {F : FTy → Type} [FloatOps F] (main_arg0 : FVec F S2097152x16 .f32) (main_arg1 : FVec F S2097152x16 .f32) (main_arg2 : FVec F S13 .f32) : IVec S_ 1 :=
  let main_v0 : FVec F S2097152x16 .f32 := Host.absf main_arg0
  let main_cst : FVec F S_ .f32 := constant S_ .f32 0x7F800000#32
  let main_v1 : FVec F S2097152x16 .f32 := broadcastInDim S2097152x16 ![] bcast_S_S2097152x16 main_cst
  let main_v2 : IVec S2097152x16 1 := cmpf .olt main_v0 main_v1
  let main_c : IVec S_ 1 := constantI S_ 1 1#1
  let main_v3 : IVec S_ 1 := (fun x v => Host.reduce IntOp.andi x v reducesTo_S2097152x16_S_d0_1 h_S_) main_v2 main_c
  let main_v4 : FVec F S2097152x16 .f32 := Host.absf main_arg1
  let main_cst_0 : FVec F S_ .f32 := constant S_ .f32 0x7F800000#32
  let main_v5 : FVec F S2097152x16 .f32 := broadcastInDim S2097152x16 ![] bcast_S_S2097152x16 main_cst_0
  let main_v6 : IVec S2097152x16 1 := cmpf .olt main_v4 main_v5
  let main_c_1 : IVec S_ 1 := constantI S_ 1 1#1
  let main_v7 : IVec S_ 1 := (fun x v => Host.reduce IntOp.andi x v reducesTo_S2097152x16_S_d0_1 h_S_) main_v6 main_c_1
  let main_v8 : IVec S_ 1 := andi main_v3 main_v7
  let main_v9 : FVec F S13 .f32 := Host.absf main_arg2
  let main_cst_2 : FVec F S_ .f32 := constant S_ .f32 0x7F800000#32
  let main_v10 : FVec F S13 .f32 := broadcastInDim S13 ![] bcast_S_S13 main_cst_2
  let main_v11 : IVec S13 1 := cmpf .olt main_v9 main_v10
  let main_c_3 : IVec S_ 1 := constantI S_ 1 1#1
  let main_v12 : IVec S_ 1 := (fun x v => Host.reduce IntOp.andi x v reducesTo_S13_S_d0 h_S_) main_v11 main_c_3
  let main_v13 : IVec S_ 1 := andi main_v8 main_v12
  main_v13
-- ==== Kernel.lean ====
abbrev S2097152x16 : Shape := ⟨2, ![2097152, 16]⟩
abbrev S13 : Shape := ⟨1, ![13]⟩
abbrev S1x1 : Shape := ⟨2, ![1, 1]⟩
abbrev S4096x16 : Shape := ⟨2, ![4096, 16]⟩
abbrev S4096x3 : Shape := ⟨2, ![4096, 3]⟩
abbrev S4096x1 : Shape := ⟨2, ![4096, 1]⟩
abbrev S1 : Shape := ⟨1, ![1]⟩
abbrev S4096x13 : Shape := ⟨2, ![4096, 13]⟩
abbrev S1x13 : Shape := ⟨2, ![1, 13]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S2097152x16, .f32⟩
  | .hbm, ⟨1, _⟩ => ⟨S2097152x16, .f32⟩
  | .hbm, ⟨2, _⟩ => ⟨S13, .f32⟩
  | .hbm, ⟨3, _⟩ => ⟨S1x1, .f32⟩
  | .hbm, ⟨4, _⟩ => ⟨S_, .f32⟩
  | .local _ .vmem, ⟨0, _⟩ => ⟨S4096x16, .f32⟩
  | .local _ .vmem, ⟨1, _⟩ => ⟨S4096x16, .f32⟩
  | .local _ .vmem, ⟨2, _⟩ => ⟨S4096x16, .f32⟩
  | .local _ .vmem, ⟨3, _⟩ => ⟨S4096x16, .f32⟩
  | .local _ .vmem, ⟨4, _⟩ => ⟨S13, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S2097152x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v78 : BitVec 1 := Scalar.cmpi .eq arg0 c511_i32
  let v79 : BitVec 32 := Scalar.extui v78
  let c0_i32_26 : BitVec 32 := 0#32
  let v80 : BitVec 1 := Scalar.cmpi .ne v79 c0_i32_26
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x16_S4096x16_0_0 : ∀ a, (![0, 0] : Fin 2 → Nat) a + S4096x16.size a ≤ S4096x16.size a
  h_S4096x16 : 0 < S4096x16.numel
  slices_S4096x16_o0_0_S4096x3 : S4096x16.Slices ![0, 0] S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  reduces_S4096x1_S1 : S4096x1.Reduces [0] S1
  shapeCasts_S1_S1x1 : S1.ShapeCasts S1x1
  slices_S4096x16_o0_3_S4096x13 : S4096x16.Slices ![0, 3] S4096x13
  inb_S13_S13_0 : ∀ a, (![0] : Fin 1 → Nat) a + S13.size a ≤ S13.size a
  h_S13 : 0 < S13.numel
  shapeCasts_S13_S1x13 : S13.ShapeCasts S1x13
  shapeCasts_S1x13_S1x13 : S1x13.ShapeCasts S1x13
  broadcasts_S1x13_S4096x13 : S1x13.Broadcasts S4096x13
  reduces_S4096x13_S13 : S4096x13.Reduces [0] S13
  reduces_S1x13_S1 : S1x13.Reduces [1] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S2097152x16.size a
  hwx0_0 : ∀ i : grid0.Coords, EltTy.bits .f32 = 32 ∨ (Rect.block (s := S2097152x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S2097152x16.size a
  hwx0_1 : ∀ i : grid0.Coords, EltTy.bits .f32 = 32 ∨ (Rect.block (s := S2097152x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13.size a ≤ S13.size a
  hwx0_2 : ∀ i : grid0.Coords, EltTy.bits .f32 = 32 ∨ (Rect.block (s := S13) S13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S13.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2097152x16 : Shape := ⟨2, ![2097152, 16]⟩
abbrev S13 : Shape := ⟨1, ![13]⟩
abbrev S2097152x3 : Shape := ⟨2, ![2097152, 3]⟩
abbrev S_ : Shape := ⟨0, ![]⟩
abbrev S3 : Shape := ⟨1, ![3]⟩
abbrev S1 : Shape := ⟨1, ![1]⟩
abbrev S2097152x13 : Shape := ⟨2, ![2097152, 13]⟩
abbrev S1x13 : Shape := ⟨2, ![1, 13]⟩

abbrev nBuf : Space → Nat
  | .hbm => 90
  | .vmem => 0
  | .smem => 0
  | _ => 0

abbrev bufTy : (tb : Table) → Fin (tcTables nBuf tb) → BufTy
  | .hbm, ⟨0, _⟩ => ⟨S2097152x16, .f32⟩
  | .hbm, ⟨1, _⟩ => ⟨S2097152x16, .f32⟩
  | .hbm, ⟨2, _⟩ => ⟨S13, .f32⟩
  | .hbm, ⟨3, _⟩ => ⟨S2097152x3, .f32⟩
  | .hbm, ⟨4, _⟩ => ⟨S2097152x3, .f32⟩
  | .hbm, ⟨5, _⟩ => ⟨S2097152x3, .f32⟩
  | .hbm, ⟨6, _⟩ => ⟨S2097152x3, .f32⟩
  | .hbm, ⟨7, _⟩ => ⟨S_, .f32⟩
  | .hbm, ⟨8, _⟩ => ⟨S3, .f32⟩
  | .hbm, ⟨9, _⟩ => ⟨S_, .f32⟩
  | .hbm, ⟨10, _⟩ => ⟨S3, .f32⟩
  | .hbm, ⟨11, _⟩ => ⟨S3, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S2097152x13, .f32⟩
  | .hbm, ⟨23, _⟩ => ⟨S2097152x13, .f32⟩
  | .hbm, ⟨24, _⟩ => ⟨S_, .f32⟩
  | .hbm, ⟨25, _⟩ => ⟨S2097152x13, .f32⟩
  | .hbm, ⟨26, _⟩ => ⟨S2097152x13, .i1⟩
  | .hbm, ⟨27, _⟩ => ⟨S_, .f32⟩
  | .hbm, ⟨28, _⟩ => ⟨S_, .f32⟩
  | .hbm, ⟨29, _⟩ => ⟨S2097152x13, .f32⟩
  | .hbm, ⟨30, _⟩ => ⟨S2097152x13, .f32⟩
  | .hbm, ⟨31, _⟩ => ⟨S_, .f32⟩
  | .hbm, ⟨32, _⟩ => ⟨S2097152x13, .f32⟩
  | .hbm, ⟨33, _⟩ => ⟨S2097152x13, .f32⟩
  | .hbm, ⟨34, _⟩ => ⟨S2097152x13, .f32⟩
  | .hbm, ⟨35, _⟩ => ⟨S2097152x13, .f32⟩
  | .hbm, ⟨36, _⟩ => ⟨S2097152x13, .i1⟩
  | .hbm, ⟨37, _⟩ => ⟨S2097152x13, .f32⟩
  | .hbm, ⟨38, _⟩ => ⟨S2097152x13, .f32⟩
  | .hbm, ⟨39, _⟩ => ⟨S2097152x13, .f32⟩
  | .hbm, ⟨40, _⟩ => ⟨S2097152x13, .f32⟩
  | .hbm, ⟨41, _⟩ => ⟨S2097152x13, .f32⟩
  | .hbm, ⟨42, _⟩ => ⟨S2097152x13, .f32⟩
  | .hbm, ⟨43, _⟩ => ⟨S2097152x13, .f32⟩
  | .hbm, ⟨44, _⟩ => ⟨S2097152x13, .f32⟩
  | .hbm, ⟨45, _⟩ => ⟨S2097152x13, .f32⟩
  | .hbm, ⟨46, _⟩ => ⟨S2097152x13, .f32⟩
  | .hbm, ⟨47, _⟩ => ⟨S2097152x13, .f32⟩
  | .hbm, ⟨48, _⟩ => ⟨S2097152x13, .f32⟩
  | .hbm, ⟨49, _⟩ => ⟨S_, .f32⟩
  | .hbm, ⟨50, _⟩ => ⟨S2097152x13, .f32⟩
  | .hbm, ⟨51, _⟩ => ⟨S2097152x13, .f32⟩
  | .hbm, ⟨52, _⟩ => ⟨S_, .f32⟩
  | .hbm, ⟨53, _⟩ => ⟨S2097152x13, .f32⟩
  | .hbm, ⟨54, _⟩ => ⟨S2097152x13, .f32⟩
  | .hbm, ⟨55, _⟩ => ⟨S2097152x13, .f32⟩
  | .hbm, ⟨56, _⟩ => ⟨S_, .f32⟩
  | .hbm, ⟨57, _⟩ => ⟨S2097152x13, .f32⟩
  | .hbm, ⟨58, _⟩ => ⟨S2097152x13, .f32⟩
  | .hbm, ⟨59, _⟩ => ⟨S_, .f32⟩
  | .hbm, ⟨60, _⟩ => ⟨S2097152x13, .f32⟩
  | .hbm, ⟨61, _⟩ => ⟨S2097152x13, .f32⟩
  | .hbm, ⟨62, _⟩ => ⟨S2097152x13, .f32⟩
  | .hbm, ⟨63, _⟩ => ⟨S2097152x13, .f32⟩
  | .hbm, ⟨64, _⟩ => ⟨S_, .f32⟩
  | .hbm, ⟨65, _⟩ => ⟨S2097152x13, .f32⟩
  | .hbm, ⟨66, _⟩ => ⟨S2097152x13, .f32⟩
  | .hbm, ⟨67, _⟩ => ⟨S_, .f32⟩
  | .hbm, ⟨68, _⟩ => ⟨S2097152x13, .f32⟩
  | .hbm, ⟨69, _⟩ => ⟨S2097152x13, .f32⟩
  | .hbm, ⟨70, _⟩ => ⟨S2097152x13, .f32⟩
  | .hbm, ⟨71, _⟩ => ⟨S_, .f32⟩
  | .hbm, ⟨72, _⟩ => ⟨S2097152x13, .f32⟩
  | .hbm, ⟨73, _⟩ => ⟨S2097152x13, .i1⟩
  | .hbm, ⟨74, _⟩ => ⟨S1x13, .f32⟩
  | .hbm, ⟨75, _⟩ => ⟨S1x13, .f32⟩
  | .hbm, ⟨76, _⟩ => ⟨S_, .f32⟩
  | .hbm, ⟨77, _⟩ => ⟨S1x13, .f32⟩
  | .hbm, ⟨78, _⟩ => ⟨S1x13, .f32⟩
  | .hbm, ⟨79, _⟩ => ⟨S2097152x13, .f32⟩
  | .hbm, ⟨80, _⟩ => ⟨S2097152x13, .f32⟩
  | .hbm, ⟨81, _⟩ => ⟨S2097152x13, .f32⟩
  | .hbm, ⟨82, _⟩ => ⟨S2097152x13, .f32⟩
  | .hbm, ⟨83, _⟩ => ⟨S_, .f32⟩
  | .hbm, ⟨84, _⟩ => ⟨S_, .f32⟩
  | .hbm, ⟨85, _⟩ => ⟨S2097152x13, .f32⟩
  | .hbm, ⟨86, _⟩ => ⟨S2097152x13, .f32⟩
  | .hbm, ⟨87, _⟩ => ⟨S_, .f32⟩
  | .hbm, ⟨88, _⟩ => ⟨S_, .f32⟩
  | .hbm, ⟨89, _⟩ => ⟨S_, .f32⟩
  | _, _ => ⟨S2097152x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_call1_v0 : Ref sig .tc := ⟨.hbm, 79, rfl⟩
abbrev main_call1_v1 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_call2_v0 : Ref sig .tc := ⟨.hbm, 84, rfl⟩
abbrev main_call2_v1 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  slices_S2097152x16_S2097152x3_0_0 : S2097152x16.Slices ![0, 0] S2097152x3
  reducesTo_S2097152x3_S3_d0 : S2097152x3.ReducesTo [0] S3
  h_S_ : 0 < S_.numel
  bcast_S_S3 : S_.BroadcastsInDim S3 (![] : Fin 0 → Fin S3.rank)
  slices_S3_S1_0 : S3.Slices ![0] S1
  shapeCasts_S1_S_ : S1.ShapeCasts S_
  slices_S3_S1_1 : S3.Slices ![1] S1
  slices_S3_S1_2 : S3.Slices ![2] S1
  slices_S2097152x16_S2097152x13_0_3 : S2097152x16.Slices ![0, 3] S2097152x13
  bcast_S_S2097152x13 : S_.BroadcastsInDim S2097152x13 (![] : Fin 0 → Fin S2097152x13.rank)
  bcast_S13_S1x13_1 : S13.BroadcastsInDim S1x13 (![1] : Fin 1 → Fin S1x13.rank)
  bcast_S_S1x13 : S_.BroadcastsInDim S1x13 (![] : Fin 0 → Fin S1x13.rank)
  bcast_S1x13_S2097152x13_0_1 : S1x13.BroadcastsInDim S2097152x13 (![0, 1] : Fin 2 → Fin S2097152x13.rank)
  reducesTo_S2097152x13_S_d0_1 : S2097152x13.ReducesTo [0, 1] S_

variable [Facts₀]

class Facts : Prop extends Facts₀ where

variable [Facts]
-- ==== Proof.StoredValues.lean ====
/-
  What each store of the loss kernel's body leaves behind, as a value.  The body keeps two running
  totals in one-element scratch buffers: the weighted squared error of the three regression columns,
  and the masked focal loss of the thirteen presence columns.  At the first grid point both are reset
  to zero before the point's own contribution is added; at every other point the contribution is
  added to what the point before left; at the last point the result block receives the first total
  divided by the number of rows plus the second total.  Each lemma below identifies the contents a
  case leaves in a buffer with the arithmetic of that store, applied to the blocks the point reads.
-/
import proofs.«105964_j37881611550866_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stored

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- The focal total's update: the previous total `s` plus the point's masked focal loss, summed over
    rows and then over columns, of the output block `x0`, the target block `x1` and the class weights `x2`. -/
abbrev focalStep (x0 x1 : Vec F S4096x16 .f32) (x2 : Vec F S13 .f32) (s : Vec F S1x1 .f32) : FVec F S1x1 .f32 :=
  k0_pay1 (k0_pay6 x0) (k0_pay8 x1) (k0_pay9 x1) (k0_pay10 x0) (k0_pay12 x0) (k0_pay13 x0) (k0_pay14 x0) x2 s

/-- A middle point adds its weighted squared error to the regression total the point before left. -/
theorem regTotal_mid (c : Dev nD) (i : grid0.Coords) (a1 : Memref sig .tc .vmem S4096x16 .f32) (h1 : a1.IsWhole) (a2 : Memref sig .tc .vmem S4096x16 .f32) (h2 : a2.IsWhole) (a3 : Memref sig .tc .vmem S13 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S4096x16 .f32) (x2 : Vec F S13 .f32) (xs0 xs1 : Vec F S1x1 .f32) :
    sout0_B_0 c i a1 h1 a2 h2 a3 h3 a4 h4 a5 h5 a6 h6 hc0 hc1 x0 x1 x2 xs0 xs1 = k0_pay5 x0 x1 xs0 := by
  unfold sout0_B_0
  rw [View.read_writes_eq_canon _ _ _ (scover0_B_0 c i a1 h1 a2 h2 a3 h3 a4 h4 a5 h5 a6 h6 hc0 hc1 x0 x1 x2 xs0 xs1)]
  unfold kernelRun0_B
  dsimp only
  sl_unfold_words
  rw [View.canon_unit_zero hz]
  simp only [View.readAt_eq_ld, h1.read_unread, h2.read_unread, h3.read_unread, h5.read_unread, h6.read_unread,
    View.ld_unit_zero (S := S4096x16) hz, View.ld_unit_zero (S := S1x1) hz, View.ld_unit_zero (S := S13) hz1]

/-- A middle point adds its masked focal loss to the focal total the point before left. -/
theorem focTotal_mid (c : Dev nD) (i : grid0.Coords) (a1 : Memref sig .tc .vmem S4096x16 .f32) (h1 : a1.IsWhole) (a2 : Memref sig .tc .vmem S4096x16 .f32) (h2 : a2.IsWhole) (a3 : Memref sig .tc .vmem S13 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S4096x16 .f32) (x2 : Vec F S13 .f32) (xs0 xs1 : Vec F S1x1 .f32) :
    sout0_B_1 c i a1 h1 a2 h2 a3 h3 a4 h4 a5 h5 a6 h6 hc0 hc1 x0 x1 x2 xs0 xs1 = focalStep x0 x1 x2 xs1 := by
  unfold sout0_B_1
  rw [View.read_writes_eq_canon _ _ _ (scover0_B_1 c i a1 h1 a2 h2 a3 h3 a4 h4 a5 h5 a6 h6 hc0 hc1 x0 x1 x2 xs0 xs1)]
  unfold kernelRun0_B
  dsimp only
  sl_unfold_words
  rw [View.canon_unit_zero hz]
  simp only [View.readAt_eq_ld, h1.read_unread, h2.read_unread, h3.read_unread, h5.read_unread, h6.read_unread,
    View.ld_unit_zero (S := S4096x16) hz, View.ld_unit_zero (S := S1x1) hz, View.ld_unit_zero (S := S13) hz1]

/-- The last point does the same to the regression total, -/
theorem regTotal_last (c : Dev nD) (i : grid0.Coords) (a1 : Memref sig .tc .vmem S4096x16 .f32) (h1 : a1.IsWhole) (a2 : Memref sig .tc .vmem S4096x16 .f32) (h2 : a2.IsWhole) (a3 : Memref sig .tc .vmem S13 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S4096x16 .f32) (x2 : Vec F S13 .f32) (xs0 xs1 : Vec F S1x1 .f32) :
    sout0_C_0 c i a1 h1 a2 h2 a3 h3 a4 h4 a5 h5 a6 h6 hc0 hc1 x0 x1 x2 xs0 xs1 = k0_pay5 x0 x1 xs0 := by
  unfold sout0_C_0
  rw [View.read_writes_eq_canon _ _ _ (scover0_C_0 c i a1 h1 a2 h2 a3 h3 a4 h4 a5 h5 a6 h6 hc0 hc1 x0 x1 x2 xs0 xs1)]
  unfold kernelRun0_C
  dsimp only
  sl_unfold_words
  rw [View.canon_unit_zero hz]
  simp only [View.readAt_eq_ld, h1.read_unread, h2.read_unread, h3.read_unread, h5.read_unread, h6.read_unread,
    View.ld_unit_zero (S := S4096x16) hz, View.ld_unit_zero (S := S1x1) hz, View.ld_unit_zero (S := S13) hz1]

/-- and to the focal total, -/
theorem focTotal_last (c : Dev nD) (i : grid0.Coords) (a1 : Memref sig .tc .vmem S4096x16 .f32) (h1 : a1.IsWhole) (a2 : Memref sig .tc .vmem S4096x16 .f32) (h2 : a2.IsWhole) (a3 : Memref sig .tc .vmem S13 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S4096x16 .f32) (x2 : Vec F S13 .f32) (xs0 xs1 : Vec F S1x1 .f32) :
    sout0_C_1 c i a1 h1 a2 h2 a3 h3 a4 h4 a5 h5 a6 h6 hc0 hc1 x0 x1 x2 xs0 xs1 = focalStep x0 x1 x2 xs1 := by
  unfold sout0_C_1
  rw [View.read_writes_eq_canon _ _ _ (scover0_C_1 c i a1 h1 a2 h2 a3 h3 a4 h4 a5 h5 a6 h6 hc0 hc1 x0 x1 x2 xs0 xs1)]
  unfold kernelRun0_C
  dsimp only
  sl_unfold_words
  rw [View.canon_unit_zero hz]
  simp only [View.readAt_eq_ld, h1.read_unread, h2.read_unread, h3.read_unread, h5.read_unread, h6.read_unread,
    View.ld_unit_zero (S := S4096x16) hz, View.ld_unit_zero (S := S1x1) hz, View.ld_unit_zero (S := S13) hz1]

/-- and then stores, into the result block, the updated regression total divided by the row count plus the
    updated focal total: both totals are read back from the scratch buffers after their last update. -/
theorem result_last (c : Dev nD) (i : grid0.Coords) (a1 : Memref sig .tc .vmem S4096x16 .f32) (h1 : a1.IsWhole) (a2 : Memref sig .tc .vmem S4096x16 .f32) (h2 : a2.IsWhole) (a3 : Memref sig .tc .vmem S13 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S4096x16 .f32) (x2 : Vec F S13 .f32) (xs0 xs1 : Vec F S1x1 .f32) :
    out0_C_3 c i a1 h1 a2 h2 a3 h3 a4 h4 a5 h5 a6 h6 hc0 hc1 x0 x1 x2 xs0 xs1 = k0_pay2 (k0_pay5 x0 x1 xs0) (focalStep x0 x1 x2 xs1) := by
  unfold out0_C_3
  rw [View.read_writes_eq_canon _ _ _ (cover0_C_3 c i a1 h1 a2 h2 a3 h3 a4 h4 a5 h5 a6 h6 hc0 hc1 x0 x1 x2 xs0 xs1)]
  unfold kernelRun0_C
  dsimp only
  sl_unfold_words
  rw [View.canon_unit_zero hz]
  simp only [View.readCov_unit_zero (S := S1x1) _ hz, View.readAt_eq_ld, h1.read_unread, h2.read_unread, h3.read_unread,
    h5.read_unread, h6.read_unread, View.ld_unit_zero (S := S4096x16) hz, View.ld_unit_zero (S := S1x1) hz,
    View.ld_unit_zero (S := S13) hz1]

/-- The first point resets the regression total to zero and adds its own weighted squared error, -/
theorem regTotal_first (c : Dev nD) (i : grid0.Coords) (a1 : Memref sig .tc .vmem S4096x16 .f32) (h1 : a1.IsWhole) (a2 : Memref sig .tc .vmem S4096x16 .f32) (h2 : a2.IsWhole) (a3 : Memref sig .tc .vmem S13 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S4096x16 .f32) (x2 : Vec F S13 .f32) :
    sout0_A_0 c i a1 h1 a2 h2 a3 h3 a4 h4 a5 h5 a6 h6 hc0 hc1 x0 x1 x2 = k0_pay5 x0 x1 (k0_pay3 (F := F)) := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S1x1) hz]
  simp only [View.readCov_unit_zero (S := S1x1) _ hz, View.readAt_eq_ld, h1.read_unread, h2.read_unread, h3.read_unread,
    View.ld_unit_zero (S := S4096x16) hz, View.ld_unit_zero (S := S1x1) hz, View.ld_unit_zero (S := S13) hz1]

/-- and likewise the focal total. -/
theorem focTotal_first (c : Dev nD) (i : grid0.Coords) (a1 : Memref sig .tc .vmem S4096x16 .f32) (h1 : a1.IsWhole) (a2 : Memref sig .tc .vmem S4096x16 .f32) (h2 : a2.IsWhole) (a3 : Memref sig .tc .vmem S13 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S4096x16 .f32) (x2 : Vec F S13 .f32) :
    sout0_A_1 c i a1 h1 a2 h2 a3 h3 a4 h4 a5 h5 a6 h6 hc0 hc1 x0 x1 x2 = focalStep x0 x1 x2 (k0_pay4 (F := F)) := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1x1) hz]
  simp only [View.readCov_unit_zero (S := S1x1) _ hz, View.readAt_eq_ld, h1.read_unread, h2.read_unread, h3.read_unread,
    View.ld_unit_zero (S := S4096x16) hz, View.ld_unit_zero (S := S1x1) hz, View.ld_unit_zero (S := S13) hz1]

end Cert.KernelIdeal.Stored

end
-- ==== Proof.LibSumBlocks.lean ====
/-
  A finite sum over `a * b` consecutive indices, taken as `a` consecutive blocks of `b` terms each.
-/
import Mathlib.Algebra.BigOperators.Fin
import Mathlib.Logic.Equiv.Fin.Basic

namespace Cert.LibSumBlocks

open Finset

/-- Term `k` of block `s` sits below `a * b`. -/
theorem blk_lt {a b s k : ℕ} (hs : s < a) (hk : k < b) : b * s + k < a * b :=
  calc b * s + k < b * s + b := Nat.add_lt_add_left hk _
    _ = b * (s + 1) := (Nat.mul_succ b s).symm
    _ ≤ b * a := Nat.mul_le_mul_left b hs
    _ = a * b := Nat.mul_comm b a

/-- In a commutative additive monoid the sum of `F` over `Fin (a * b)` is the sum over the `a` blocks of the sum of
    each block's `b` consecutive terms: `∑_r F r = ∑_{s < a} ∑_{k < b} F (b·s + k)`. Only commutativity and
    associativity of `+` enter, so it holds of the extended reals with their infinities. -/
theorem sum_fin_blocks {M : Type*} [AddCommMonoid M] (a b : ℕ) (F : Fin (a * b) → M) :
    ∑ r : Fin (a * b), F r = ∑ s : Fin a, ∑ k : Fin b, F ⟨b * s.val + k.val, blk_lt s.isLt k.isLt⟩ := by
  rw [← Equiv.sum_comp finProdFinEquiv F, Fintype.sum_prod_type]
  refine Finset.sum_congr rfl fun s _ => Finset.sum_congr rfl fun k _ => congrArg F (Fin.ext ?_)
  show k.val + b * s.val = b * s.val + k.val
  exact Nat.add_comm _ _

end Cert.LibSumBlocks
-- ==== Proof.LossSpec.lean ====
/-
  The loss as one function of the three argument arrays, over the extended reals.

  For output `O` and target `Tg` of shape [2097152, 16] and class weights `W` of shape [13]:
  columns 0, 1, 2 carry a weighted mean squared error, `(10·Σ d₀² + Σ d₁² + Σ d₂²) / 2097152` with
  `d = O - Tg`; columns 3 … 15 carry a focal loss on logits, masked where the target is `-1`,
  `Σ valid · (softplus x - x·ts) · (1 - p_t)² · w`, with `p = 1/(1 + e^{-x})`,
  `p_t = p·ts + (1 - p)(1 - ts)`, `w` the class weight where `ts = 1` and one minus it elsewhere.

  Two arrangements of this number are stated here.  The blocked one takes the rows 4096 at a time:
  each block's weighted row sums are added into one total that is divided by the row count once, at
  the end, and each block's focal terms are summed down the rows, then across the columns.  The
  direct one divides each column's sum of squares by the row count before weighting, spells the
  logistic function as a quotient and the square as a power with exponent two, and sums all focal
  terms at once.  Over finite inputs the two agree: every quantity involved is then a real number,
  division by the row count distributes over the three column sums, a real number to the power two
  is its square, and the remaining differences are a reordering of finite sums.
-/
import Idealize.ShloMosaic.PureOps.Ideal
import Idealize.ShloMosaic.PureOps.Ideal.Laws
import Idealize.ShloMosaic.Lib.ValueIdx
import proofs.«105964_j37881611550866_1_alg».proof.Proof.LibSumBlocks

noncomputable section

namespace Cert.LossSpec

open Idealize.ShloMosaic Idealize.ShloMosaic.ValueIdx

/-! ## The literals -/

theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_ten : Ideal.ofBits .f32 0x41200000#32 = ((10 : ℝ) : EReal) := by
  simp [Ideal.ofBits, Ideal.ieee, -EReal.coe_mul]; norm_num
theorem lit_rows : Ideal.ofBits .f32 0x4A000000#32 = ((2097152 : ℝ) : EReal) := by
  simp [Ideal.ofBits, Ideal.ieee, -EReal.coe_mul]; norm_num
theorem lit_zero : Ideal.ofBits .f32 0x00000000#32 = ((0 : ℝ) : EReal) := by
  rw [Ideal.ofBits_zero_f32]; rfl

/-! ## One focal term, in the two spellings -/

/-- The target with the "missing" marker `-1` replaced by zero. -/
def safeTarget (tp : EReal) : EReal :=
  Scalar.select (Ideal.cmp .one tp (Ideal.ofBits .f32 0xBF800000#32)) tp (Ideal.ofBits .f32 0x00000000#32)

/-- `log (1 + e^x)` in the stable form `max 0 x + log1p (e^{-|0 - x|})`, the negation written as a difference from zero;
    the first branch of the selection answers a comparison of `0 - x` with itself. -/
def softplusDiff (x : EReal) : EReal :=
  Scalar.select (Ideal.cmp .one (Ideal.ofBits .f32 0x00000000#32 - x) (Ideal.ofBits .f32 0x00000000#32 - x))
    (Ideal.ofBits .f32 0x00000000#32 + x)
    (max (Ideal.ofBits .f32 0x00000000#32) x
      + Ideal.log1p (Ideal.exp (Ideal.ofBits .f32 0x00000000#32
          - max (Ideal.ofBits .f32 0x00000000#32 - x) (-(Ideal.ofBits .f32 0x00000000#32 - x)))))

/-- The same with the negation written as a negation. -/
def softplusNeg (x : EReal) : EReal :=
  Scalar.select (Ideal.cmp .une (Ideal.ofBits .f32 0x00000000#32 - x) (Ideal.ofBits .f32 0x00000000#32 - x))
    (Ideal.ofBits .f32 0x00000000#32 + x)
    (max (Ideal.ofBits .f32 0x00000000#32) x
      + Ideal.log1p (Ideal.exp (-(max (Ideal.ofBits .f32 0x00000000#32 - x) (-(Ideal.ofBits .f32 0x00000000#32 - x))))))

/-- The logistic function spelled as the quotient `1 / (1 + e^{-x})`. -/
def logisticQuot (x : EReal) : EReal :=
  Ideal.div (Ideal.ofBits .f32 0x3F800000#32) (Ideal.ofBits .f32 0x3F800000#32 + Ideal.exp (-x))

/-- `1 - p_t` for the probability `p` and the safe target `ts`. -/
def missProb (p ts : EReal) : EReal :=
  Ideal.ofBits .f32 0x3F800000#32
    - (p * ts + (Ideal.ofBits .f32 0x3F800000#32 - p) * (Ideal.ofBits .f32 0x3F800000#32 - ts))

/-- The class weight where the safe target is one, one minus it elsewhere. -/
def classWeight (ts w : EReal) : EReal :=
  Scalar.select (Ideal.cmp .oeq ts (Ideal.ofBits .f32 0x3F800000#32)) w (Ideal.ofBits .f32 0x3F800000#32 - w)

/-- One masked focal term as the blocked arrangement computes it: logistic as one function, the square as a product. -/
def focalProd (x tp w : EReal) : EReal :=
  Scalar.select (Ideal.cmp .one tp (Ideal.ofBits .f32 0xBF800000#32))
    ((softplusDiff x - x * safeTarget tp)
        * (missProb (Ideal.logistic x) (safeTarget tp) * missProb (Ideal.logistic x) (safeTarget tp))
      * classWeight (safeTarget tp) w)
    (Ideal.ofBits .f32 0x00000000#32)

/-- One masked focal term as the direct arrangement computes it: logistic as a quotient, the square as a power. -/
def focalPow (x tp w : EReal) : EReal :=
  Scalar.select (Ideal.cmp .une tp (Ideal.ofBits .f32 0xBF800000#32))
    ((softplusNeg x - x * safeTarget tp)
        * Ideal.pow (missProb (logisticQuot x) (safeTarget tp)) (Ideal.ofBits .f32 0x40000000#32)
      * classWeight (safeTarget tp) w)
    (Ideal.ofBits .f32 0x00000000#32)

/-- Zero minus a number is its negation, so the two stable forms of `log (1 + e^x)` are one. -/
theorem softplusNeg_eq (x : EReal) : softplusNeg x = softplusDiff x := by
  unfold softplusNeg softplusDiff
  simp only [Ideal.ofBits_zero_f32, zero_sub]
  rfl

/-- On a real argument the logistic function and its quotient spelling are one real number. -/
theorem logistic_real (a : ℝ) : ∃ p : ℝ, Ideal.logistic (a : EReal) = (p : EReal) ∧ logisticQuot (a : EReal) = (p : EReal) := by
  have hpos : (1 + Real.exp (-a)) ≠ 0 := by positivity
  have h1 : Ideal.div 1 (1 + Ideal.exp (-(a : EReal))) = (((1 : ℝ) * (1 / (1 + Real.exp (-a))) : ℝ) : EReal) := by
    rw [← EReal.coe_neg, Ideal.exp_coe, ← EReal.coe_one, ← EReal.coe_add, Ideal.div_coe hpos, ← EReal.coe_mul]
  refine ⟨1 * (1 / (1 + Real.exp (-a))), ?_, ?_⟩
  · unfold Ideal.logistic; exact h1
  · unfold logisticQuot; rw [lit_one, EReal.coe_one]; exact h1

/-- The safe target of a real target is real. -/
theorem safeTarget_real (b : ℝ) : ∃ s : ℝ, safeTarget (b : EReal) = (s : EReal) := by
  unfold safeTarget Scalar.select
  split
  · exact ⟨b, rfl⟩
  · exact ⟨0, lit_zero⟩

/-- `1 - p_t` of reals is real. -/
theorem missProb_real (p s : ℝ) : missProb (p : EReal) (s : EReal) = ((1 - (p * s + (1 - p) * (1 - s)) : ℝ) : EReal) := by
  unfold missProb
  rw [lit_one]
  push_cast
  rfl

/-- A real number to the power two is its product with itself. -/
theorem pow_two_real (r : ℝ) : Ideal.pow (r : EReal) (Ideal.ofBits .f32 0x40000000#32) = (r : EReal) * (r : EReal) := by
  rw [lit_two, Ideal.pow_coe_coe, ← EReal.coe_mul]
  congr 1
  show r ^ (2 : ℝ) = r * r
  rw [Real.rpow_two, sq]

/-- On real logit and target the two spellings of a focal term agree, whatever the class weight. -/
theorem focalPow_eq_focalProd (a b : ℝ) (w : EReal) : focalPow (a : EReal) (b : EReal) w = focalProd (a : EReal) (b : EReal) w := by
  obtain ⟨p, hp, hq⟩ := logistic_real a
  obtain ⟨s, hs⟩ := safeTarget_real b
  unfold focalPow focalProd
  rw [softplusNeg_eq, hp, hq, hs, missProb_real, pow_two_real]
  rfl

/-! ## Rows, blocks, and the two arrangements -/

open Cert.LibSumBlocks in
/-- Rows `4096·t … 4096·t + 4095` of a [2097152, 16] array, as a [4096, 16] array. -/
def rowBlock (X : (⟨2, ![2097152, 16]⟩ : Shape).Idx → EReal) (t : Fin 512) : (⟨2, ![4096, 16]⟩ : Shape).Idx → EReal :=
  fun y => X (ix2 (⟨4096 * t.val + (y 0).val, blk_lt t.isLt (y 0).isLt⟩ : Fin 2097152) (y 1))

/-- The squared error of entry `(ρ, j)`. -/
def sqErr {n : ℕ} (X Y : (⟨2, ![n, 16]⟩ : Shape).Idx → EReal) (ρ : Fin n) (j : Fin 16) : EReal :=
  (X (ix2 ρ j) - Y (ix2 ρ j)) * (X (ix2 ρ j) - Y (ix2 ρ j))

/-- Row `ρ`'s weighted squared error: ten times column 0's, plus column 1's, plus column 2's. -/
def rowErr {n : ℕ} (X Y : (⟨2, ![n, 16]⟩ : Shape).Idx → EReal) (ρ : Fin n) : EReal :=
  Ideal.ofBits .f32 0x41200000#32 * sqErr X Y ρ 0 + sqErr X Y ρ 1 + sqErr X Y ρ 2

/-- Presence class `c` sits in column `3 + c`. -/
def presenceCol (c : Fin 13) : Fin 16 := ⟨3 + c.val, by have := c.isLt; omega⟩

/-- The masked focal term of row `ρ` and class `c`. -/
def focalAt {n : ℕ} (X Y : (⟨2, ![n, 16]⟩ : Shape).Idx → EReal) (W : (⟨1, ![13]⟩ : Shape).Idx → EReal) (ρ : Fin n) (c : Fin 13) : EReal :=
  focalProd (X (ix2 ρ (presenceCol c))) (Y (ix2 ρ (presenceCol c))) (W (ix1 c))

/-- A block's weighted squared error, summed over its rows. -/
def blockErr (X Y : (⟨2, ![4096, 16]⟩ : Shape).Idx → EReal) : EReal := ∑ r : Fin 4096, rowErr X Y r

/-- A block's focal terms, summed down the rows and then across the classes. -/
def blockFocal (X Y : (⟨2, ![4096, 16]⟩ : Shape).Idx → EReal) (W : (⟨1, ![13]⟩ : Shape).Idx → EReal) : EReal :=
  ∑ c : Fin 13, ∑ r : Fin 4096, focalAt X Y W r c

/-- The blocked arrangement of the loss. -/
def lossBlocked (O Tg : (⟨2, ![2097152, 16]⟩ : Shape).Idx → EReal) (W : (⟨1, ![13]⟩ : Shape).Idx → EReal) : EReal :=
  Ideal.div (∑ t : Fin 512, blockErr (rowBlock O t) (rowBlock Tg t)) (Ideal.ofBits .f32 0x4A000000#32)
    + ∑ t : Fin 512, blockFocal (rowBlock O t) (rowBlock Tg t) W

/-- Column `j`'s mean squared error, the sum started from zero. -/
def colMean (O Tg : (⟨2, ![2097152, 16]⟩ : Shape).Idx → EReal) (j : Fin 16) : EReal :=
  Ideal.div (Ideal.ofBits .f32 0x00000000#32 + ∑ ρ : Fin 2097152, sqErr O Tg ρ j) (Ideal.ofBits .f32 0x4A000000#32)

/-- Entry `(ρ, c)` of the presence columns sits at `(ρ, 3 + c)` of the whole array, -/
def logitIdx (j : (⟨2, ![2097152, 13]⟩ : Shape).Idx) : (⟨2, ![2097152, 16]⟩ : Shape).Idx :=
  ix2 (⟨(j 0).val, (j 0).isLt⟩ : Fin 2097152) (presenceCol ⟨(j 1).val, (j 1).isLt⟩)
/-- and its class weight at `c`. -/
def classIdx (j : (⟨2, ![2097152, 13]⟩ : Shape).Idx) : (⟨1, ![13]⟩ : Shape).Idx := ix1 (⟨(j 1).val, (j 1).isLt⟩ : Fin 13)

/-- The direct arrangement of the loss. -/
def lossDirect (O Tg : (⟨2, ![2097152, 16]⟩ : Shape).Idx → EReal) (W : (⟨1, ![13]⟩ : Shape).Idx → EReal) : EReal :=
  (Ideal.ofBits .f32 0x41200000#32 * colMean O Tg 0 + colMean O Tg 1 + colMean O Tg 2)
    + (Ideal.ofBits .f32 0x00000000#32
        + ∑ j : (⟨2, ![2097152, 13]⟩ : Shape).Idx,
            focalPow (O (logitIdx j)) (Tg (logitIdx j)) (W (classIdx j)))

/-- A finite sum of real numbers, taken in the extended reals, is the real sum. -/
theorem coe_sum {ι : Type*} (s : Finset ι) (f : ι → ℝ) : ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

theorem sqErr_real {n : ℕ} (o tg : (⟨2, ![n, 16]⟩ : Shape).Idx → ℝ) (ρ : Fin n) (j : Fin 16) :
    sqErr (fun i => (o i : EReal)) (fun i => (tg i : EReal)) ρ j
      = (((o (ix2 ρ j) - tg (ix2 ρ j)) * (o (ix2 ρ j) - tg (ix2 ρ j)) : ℝ) : EReal) := by
  unfold sqErr
  push_cast
  rfl

/-- Summing block by block is summing over all rows. -/
theorem sum_blocks (g : Fin 2097152 → EReal) :
    ∑ t : Fin 512, ∑ r : Fin 4096, g ⟨4096 * t.val + r.val, Cert.LibSumBlocks.blk_lt t.isLt r.isLt⟩ = ∑ ρ : Fin 2097152, g ρ :=
  (Cert.LibSumBlocks.sum_fin_blocks 512 4096 g).symm

/-- Over finite outputs and targets the blocked and the direct arrangement are one number. -/
theorem lossBlocked_eq_lossDirect (O Tg : (⟨2, ![2097152, 16]⟩ : Shape).Idx → EReal) (W : (⟨1, ![13]⟩ : Shape).Idx → EReal)
    (hO : ∀ i, ∃ r : ℝ, O i = (r : EReal)) (hT : ∀ i, ∃ r : ℝ, Tg i = (r : EReal)) :
    lossBlocked O Tg W = lossDirect O Tg W := by
  choose o ho using hO
  choose tg ht using hT
  obtain rfl : O = fun i => (o i : EReal) := funext ho
  obtain rfl : Tg = fun i => (tg i : EReal) := funext ht
  unfold lossBlocked lossDirect
  refine congrArg₂ (· + ·) ?_ ?_
  · -- the squared-error part: one division of the whole sum against three divisions of the column sums
    let sq : Fin 16 → Fin 2097152 → ℝ := fun j ρ => (o (ix2 ρ j) - tg (ix2 ρ j)) * (o (ix2 ρ j) - tg (ix2 ρ j))
    have hB : (2097152 : ℝ) ≠ 0 := by norm_num
    have hsq : ∀ (ρ : Fin 2097152) (j : Fin 16),
        sqErr (fun i => (o i : EReal)) (fun i => (tg i : EReal)) ρ j = ((sq j ρ : ℝ) : EReal) := fun ρ j => sqErr_real o tg ρ j
    have hrow : ∀ ρ : Fin 2097152, rowErr (fun i => (o i : EReal)) (fun i => (tg i : EReal)) ρ
        = ((10 * sq 0 ρ + sq 1 ρ + sq 2 ρ : ℝ) : EReal) := by
      intro ρ
      unfold rowErr
      rw [hsq, hsq, hsq, lit_ten, ← EReal.coe_mul, ← EReal.coe_add, ← EReal.coe_add]
    have hcol : ∀ j : Fin 16, colMean (fun i => (o i : EReal)) (fun i => (tg i : EReal)) j
        = (((0 + ∑ ρ : Fin 2097152, sq j ρ) * (1 / 2097152) : ℝ) : EReal) := by
      intro j
      unfold colMean
      rw [Finset.sum_congr rfl (fun ρ _ => hsq ρ j), coe_sum, lit_zero, lit_rows, ← EReal.coe_add, Ideal.div_coe hB,
        ← EReal.coe_mul]
    have hsum : ∑ t : Fin 512, blockErr (rowBlock (fun i => (o i : EReal)) t) (rowBlock (fun i => (tg i : EReal)) t)
        = ∑ ρ : Fin 2097152, rowErr (fun i => (o i : EReal)) (fun i => (tg i : EReal)) ρ :=
      sum_blocks fun ρ => rowErr (fun i => (o i : EReal)) (fun i => (tg i : EReal)) ρ
    rw [hsum, Finset.sum_congr rfl (fun ρ _ => hrow ρ), coe_sum, lit_rows, Ideal.div_coe hB, ← EReal.coe_mul,
      hcol, hcol, hcol, lit_ten, ← EReal.coe_mul, ← EReal.coe_add, ← EReal.coe_add]
    refine congrArg _ ?_
    rw [Finset.sum_add_distrib, Finset.sum_add_distrib, ← Finset.mul_sum]
    ring
  · -- the focal part: the same terms, summed in another order
    have hblk : ∀ t : Fin 512, blockFocal (rowBlock (fun i => (o i : EReal)) t) (rowBlock (fun i => (tg i : EReal)) t) W
        = ∑ r : Fin 4096, (fun ρ : Fin 2097152 => ∑ c : Fin 13, focalAt (fun i => (o i : EReal)) (fun i => (tg i : EReal)) W ρ c)
            ⟨4096 * t.val + r.val, Cert.LibSumBlocks.blk_lt t.isLt r.isLt⟩ := fun t => Finset.sum_comm
    refine ((Finset.sum_congr rfl fun t _ => hblk t).trans ((sum_blocks (fun ρ : Fin 2097152 => ∑ c : Fin 13, focalAt (fun i => (o i : EReal)) (fun i => (tg i : EReal)) W ρ c)).trans ?_))
    rw [Ideal.ofBits_zero_f32, zero_add]
    refine Eq.trans ?_ (sum_idx2 _).symm
    refine Finset.sum_congr rfl fun ρ _ => Finset.sum_congr rfl fun c _ => ?_
    exact (focalPow_eq_focalProd _ _ _).symm

end Cert.LossSpec

end
-- ==== Proof.BlockValues.lean ====
/-
  The body's arithmetic read at the extended reals.  A point's update of the regression total adds the
  block's weighted squared error: the difference of the first three columns is squared entry by entry,
  column 0 is weighted by ten, the three columns are added along each row, and the 4096 row values
  are summed.  A point's update of the focal total adds the block's masked focal terms, summed down
  the 4096 rows of each of the thirteen presence columns and then across the columns.  The last
  point's result is the regression total divided by the row count, plus the focal total.
-/
import proofs.«105964_j37881611550866_1_alg».proof.Proof.StoredValues
import proofs.«105964_j37881611550866_1_alg».proof.Proof.LossSpec
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.BlockValues

open Cert.KernelIdeal Cert.KernelIdeal.Gen Cert.KernelIdeal.Stored Cert.LossSpec

/-! ## One-element shapes and the three reductions -/

/-- A one-element vector has one index. -/
theorem idx1_eq (a b : S1.Idx) : a = b := by
  rw [eq_ix1 a, eq_ix1 b]
  exact congrArg ix1 (Fin.ext (by have h1 : (a 0).val < 1 := (a 0).isLt; have h2 : (b 0).val < 1 := (b 0).isLt; omega))

/-- A one-element vector cast to a one-by-one matrix holds the vector's element. -/
theorem cast_1_11 {α : Type} (v : S1.Idx → α) (h : S1.ShapeCasts S1x1) (y : S1x1.Idx) :
    shapeCast S1x1 v h y = v (ix1 (0 : Fin 1)) := by
  unfold shapeCast
  exact congrArg v (idx1_eq _ _)

/-- The sum down the rows of a [4096, 1] column. -/
theorem sum_rows_1 (v : FVec Ideal S4096x1 .f32) :
    multiReduction .add [0] S1 v 0x00000000#32 reduces_S4096x1_S1 (.inl rfl) rfl (ix1 (0 : Fin 1))
      = ∑ r : Fin 4096, v (ix2 r (0 : Fin 1)) :=
  (Ideal.multiReduction_add_single v 0x00000000#32 reduces_S4096x1_S1 (.inl rfl) rfl (ix1 (0 : Fin 1))).trans
    (Finset.sum_congr rfl fun r _ => congrArg v (funext fun a => Fin.ext (by match a with | ⟨0, _⟩ => rfl | ⟨1, _⟩ => rfl)))

/-- The sum down the rows of column `c` of a [4096, 13] matrix. -/
theorem sum_rows_13 (v : FVec Ideal S4096x13 .f32) (c : Fin 13) :
    multiReduction .add [0] S13 v 0x00000000#32 reduces_S4096x13_S13 (.inl rfl) rfl (ix1 c)
      = ∑ r : Fin 4096, v (ix2 r c) :=
  (Ideal.multiReduction_add_single v 0x00000000#32 reduces_S4096x13_S13 (.inl rfl) rfl (ix1 c)).trans
    (Finset.sum_congr rfl fun r _ => congrArg v (funext fun a => Fin.ext (by match a with | ⟨0, _⟩ => rfl | ⟨1, _⟩ => rfl)))

/-- The sum across a [1, 13] row. -/
theorem sum_cols (u : FVec Ideal S1x13 .f32) :
    multiReduction .add [1] S1 u 0x00000000#32 reduces_S1x13_S1 (.inl rfl) rfl (ix1 (0 : Fin 1))
      = ∑ c : Fin 13, u (ix2 (0 : Fin 1) c) :=
  (Ideal.multiReduction_add_single u 0x00000000#32 reduces_S1x13_S1 (.inl rfl) rfl (ix1 (0 : Fin 1))).trans
    (Finset.sum_congr rfl fun c _ => congrArg u (funext fun a => Fin.ext (by match a with | ⟨0, _⟩ => rfl | ⟨1, _⟩ => rfl)))

/-! ## The regression total's update -/

/-- The squared difference of the first three columns, entry by entry. -/
def sqDiff3 (x0 x1 : Vec Ideal S4096x16 .f32) : FVec Ideal S4096x3 .f32 :=
  mulf (subf (extractStridedSlice S4096x3 ![0, 0] x0 slices_S4096x16_o0_0_S4096x3)
          (extractStridedSlice S4096x3 ![0, 0] x1 slices_S4096x16_o0_0_S4096x3))
       (subf (extractStridedSlice S4096x3 ![0, 0] x0 slices_S4096x16_o0_0_S4096x3)
          (extractStridedSlice S4096x3 ![0, 0] x1 slices_S4096x16_o0_0_S4096x3))

theorem sqDiff3_apply (x0 x1 : Vec Ideal S4096x16 .f32) (r : Fin 4096) (j : Fin 3) (k : Fin 16) (hk : k.val = 0 + j.val) :
    sqDiff3 x0 x1 (ix2 r j) = sqErr x0 x1 r k := by
  unfold sqDiff3 sqErr
  show (extractStridedSlice S4096x3 ![0, 0] x0 slices_S4096x16_o0_0_S4096x3 (ix2 r j)
          - extractStridedSlice S4096x3 ![0, 0] x1 slices_S4096x16_o0_0_S4096x3 (ix2 r j))
        * (extractStridedSlice S4096x3 ![0, 0] x0 slices_S4096x16_o0_0_S4096x3 (ix2 r j)
          - extractStridedSlice S4096x3 ![0, 0] x1 slices_S4096x16_o0_0_S4096x3 (ix2 r j)) = _
  rw [slice2_axis1_apply 0 x0 slices_S4096x16_o0_0_S4096x3 r j k hk, slice2_axis1_apply 0 x1 slices_S4096x16_o0_0_S4096x3 r j k hk]

/-- A point adds its block's weighted squared error to the regression total. -/
theorem regStep_apply (x0 x1 : Vec Ideal S4096x16 .f32) (s : Vec Ideal S1x1 .f32) (y : S1x1.Idx) :
    k0_pay5 (F := Ideal) x0 x1 s y = s y + blockErr x0 x1 := by
  unfold k0_pay5
  refine (congrFun (shapeCast_self _ shapeCasts_S1x1_S1x1) y).trans ?_
  refine congrArg (s y + ·) ?_
  refine (cast_1_11 _ shapeCasts_S1_S1x1 y).trans ?_
  refine (sum_rows_1 _).trans ?_
  refine Finset.sum_congr rfl fun r _ => ?_
  show Ideal.ofBits .f32 0x41200000#32
        * extractStridedSlice S4096x1 ![0, 0] (sqDiff3 x0 x1) slices_S4096x3_o0_0_S4096x1 (ix2 r (0 : Fin 1))
      + extractStridedSlice S4096x1 ![0, 1] (sqDiff3 x0 x1) slices_S4096x3_o0_1_S4096x1 (ix2 r (0 : Fin 1))
      + extractStridedSlice S4096x1 ![0, 2] (sqDiff3 x0 x1) slices_S4096x3_o0_2_S4096x1 (ix2 r (0 : Fin 1)) = rowErr x0 x1 r
  rw [slice2_axis1_apply 0 (sqDiff3 x0 x1) slices_S4096x3_o0_0_S4096x1 r (0 : Fin 1) (0 : Fin 3) rfl,
    slice2_axis1_apply 1 (sqDiff3 x0 x1) slices_S4096x3_o0_1_S4096x1 r (0 : Fin 1) (1 : Fin 3) rfl,
    slice2_axis1_apply 2 (sqDiff3 x0 x1) slices_S4096x3_o0_2_S4096x1 r (0 : Fin 1) (2 : Fin 3) rfl,
    sqDiff3_apply x0 x1 r 0 0 rfl, sqDiff3_apply x0 x1 r 1 1 rfl, sqDiff3_apply x0 x1 r 2 2 rfl]
  rfl

/-! ## The focal total's update -/

/-- A point adds its block's masked focal terms to the focal total. -/
theorem focalStep_apply (x0 x1 : Vec Ideal S4096x16 .f32) (x2 : Vec Ideal S13 .f32) (s : Vec Ideal S1x1 .f32) (y : S1x1.Idx) :
    focalStep (F := Ideal) x0 x1 x2 s y = s y + blockFocal x0 x1 x2 := by
  unfold focalStep k0_pay1
  refine (congrFun (shapeCast_self _ shapeCasts_S1x1_S1x1) y).trans ?_
  refine congrArg (s y + ·) ?_
  refine (cast_1_11 _ shapeCasts_S1_S1x1 y).trans ?_
  refine (sum_cols _).trans ?_
  refine Finset.sum_congr rfl fun c _ => ?_
  refine (shapeCast_a_1a_apply _ shapeCasts_S13_S1x13 (0 : Fin 1) c).trans ?_
  refine (sum_rows_13 _ c).trans ?_
  refine Finset.sum_congr rfl fun r _ => ?_
  show focalProd (extractStridedSlice S4096x13 ![0, 3] x0 slices_S4096x16_o0_3_S4096x13 (ix2 r c))
      (extractStridedSlice S4096x13 ![0, 3] x1 slices_S4096x16_o0_3_S4096x13 (ix2 r c))
      (broadcastTo S4096x13 (shapeCast S1x13 (shapeCast S1x13 x2 shapeCasts_S13_S1x13) shapeCasts_S1x13_S1x13)
        broadcasts_S1x13_S4096x13 (ix2 r c)) = focalAt x0 x1 x2 r c
  rw [slice2_axis1_apply 3 x0 slices_S4096x16_o0_3_S4096x13 r c (presenceCol c) rfl,
    slice2_axis1_apply 3 x1 slices_S4096x16_o0_3_S4096x13 r c (presenceCol c) rfl,
    broadcastTo_1b_ab_apply, shapeCast_self, shapeCast_a_1a_apply]
  rfl

/-! ## The result and the resets -/

/-- The last point's result: the regression total over the row count, plus the focal total. -/
theorem result_apply (a b : Vec Ideal S1x1 .f32) (y : S1x1.Idx) :
    k0_pay2 (F := Ideal) a b y = Ideal.div (a y) (Ideal.ofBits .f32 0x4A000000#32) + b y := rfl

/-- The first point resets both totals to zero. -/
theorem reset0_apply (y : S1x1.Idx) : k0_pay3 (F := Ideal) y = 0 := by
  unfold k0_pay3
  refine (congrFun (shapeCast_self _ shapeCasts_S1x1_S1x1) y).trans ?_
  exact Ideal.ofBits_zero_f32
theorem reset1_apply (y : S1x1.Idx) : k0_pay4 (F := Ideal) y = 0 := by
  unfold k0_pay4
  refine (congrFun (shapeCast_self _ shapeCasts_S1x1_S1x1) y).trans ?_
  exact Ideal.ofBits_zero_f32

end Cert.KernelIdeal.BlockValues

end
-- ==== Proof.Totals.lean ====
/-
  The grid, point by point.  After point `n` the first scratch buffer holds the weighted squared error of
  blocks `0 … n` and the second their masked focal terms: the first point starts both from zero, every
  later point adds its block to what the point before left (induction on the point).  The last point,
  and only it, writes the result block back: the first total divided by the row count plus the second.
  The result array has one element, which that block covers; the reshape after the kernel hands the
  same number on as a scalar.
-/
import proofs.«105964_j37881611550866_1_alg».proof.Proof.BlockValues
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.KernelIdeal.Stored Cert.KernelIdeal.BlockValues Cert.LossSpec

variable (m : (ℓ : Loc nD τ sig) → Buf (Elt Ideal) ℓ) (ρ : Dev nD → PrngReg)

/-- Block `s`'s weighted squared error (zero past the grid). -/
def errOf (c : Dev nD) (s : ℕ) : EReal :=
  if h : s < cfg0.N then blockErr (iblk m c 0 ⟨s, h⟩) (iblk m c 1 ⟨s, h⟩) else 0

/-- Block `s`'s masked focal terms (zero past the grid). -/
def focalOf (c : Dev nD) (s : ℕ) : EReal :=
  if h : s < cfg0.N then blockFocal (iblk m c 0 ⟨s, h⟩) (iblk m c 1 ⟨s, h⟩) (iblk m c 2 ⟨s, h⟩) else 0

/-- The two totals over blocks `0 … n`. -/
def errTotal (c : Dev nD) (n : ℕ) : EReal := ∑ s ∈ Finset.range (n + 1), errOf m c s
def focalTotal (c : Dev nD) (n : ℕ) : EReal := ∑ s ∈ Finset.range (n + 1), focalOf m c s

theorem errOf_of_lt (c : Dev nD) (s : ℕ) (h : s < cfg0.N) :
    errOf m c s = blockErr (iblk m c 0 ⟨s, h⟩) (iblk m c 1 ⟨s, h⟩) := dif_pos h
theorem focalOf_of_lt (c : Dev nD) (s : ℕ) (h : s < cfg0.N) :
    focalOf m c s = blockFocal (iblk m c 0 ⟨s, h⟩) (iblk m c 1 ⟨s, h⟩) (iblk m c 2 ⟨s, h⟩) := dif_pos h

/-- What the scratch buffers hold after point `n`: the two totals over blocks `0 … n`. -/
theorem totals (c : Dev nD) : ∀ (n : ℕ) (h : n < cfg0.N),
    (outsAt0 m c n h).2.1 = (fun _ => errTotal m c n) ∧ (outsAt0 m c n h).2.2 = (fun _ => focalTotal m c n)
  | 0, h => by
    have h0 : (⟨0, h⟩ : Fin cfg0.N).val % 512 = 0 := rfl
    have h1 : ¬(⟨0, h⟩ : Fin cfg0.N).val % 512 = 511 := by dsimp only; omega
    rw [outsAt0_A m c ⟨0, h⟩ h0 h1]
    dsimp only
    refine ⟨?_, ?_⟩
    · refine (regTotal_first (F := Ideal) c _ _ _ _ _ _ _ _ _ _ _ _ _ _ _ (iblk m c 0 ⟨0, h⟩) (iblk m c 1 ⟨0, h⟩) (iblk m c 2 ⟨0, h⟩)).trans ?_
      funext y
      refine (regStep_apply (iblk m c 0 ⟨0, h⟩) (iblk m c 1 ⟨0, h⟩) _ y).trans ?_
      rw [reset0_apply, zero_add]
      unfold errTotal
      rw [Finset.sum_range_one, errOf_of_lt m c 0 h]
    · refine (focTotal_first (F := Ideal) c _ _ _ _ _ _ _ _ _ _ _ _ _ _ _ (iblk m c 0 ⟨0, h⟩) (iblk m c 1 ⟨0, h⟩) (iblk m c 2 ⟨0, h⟩)).trans ?_
      funext y
      refine (focalStep_apply (iblk m c 0 ⟨0, h⟩) (iblk m c 1 ⟨0, h⟩) (iblk m c 2 ⟨0, h⟩) _ y).trans ?_
      rw [reset1_apply, zero_add]
      unfold focalTotal
      rw [Finset.sum_range_one, focalOf_of_lt m c 0 h]
  | n + 1, h => by
    have ih := totals c n (Nat.lt_of_succ_lt h)
    have hN : cfg0.N = 512 := N_0
    have h0 : ¬(⟨n + 1, h⟩ : Fin cfg0.N).val % 512 = 0 := by dsimp only; omega
    by_cases h1 : (⟨n + 1, h⟩ : Fin cfg0.N).val % 512 = 511
    · rw [outsAt0_C m c ⟨n + 1, h⟩ h0 h1]
      dsimp only
      refine ⟨?_, ?_⟩
      · refine (regTotal_last (F := Ideal) c _ _ _ _ _ _ _ _ _ _ _ _ _ _ _ (iblk m c 0 ⟨n + 1, h⟩) (iblk m c 1 ⟨n + 1, h⟩) (iblk m c 2 ⟨n + 1, h⟩) _ _).trans ?_
        funext y
        refine (regStep_apply (iblk m c 0 ⟨n + 1, h⟩) (iblk m c 1 ⟨n + 1, h⟩) _ y).trans ?_
        show (outsAt0 m c n _).2.1 y + _ = _
        rw [ih.1]
        unfold errTotal
        rw [Finset.sum_range_succ _ (n + 1), errOf_of_lt m c (n + 1) h]
      · refine (focTotal_last (F := Ideal) c _ _ _ _ _ _ _ _ _ _ _ _ _ _ _ (iblk m c 0 ⟨n + 1, h⟩) (iblk m c 1 ⟨n + 1, h⟩) (iblk m c 2 ⟨n + 1, h⟩) _ _).trans ?_
        funext y
        refine (focalStep_apply (iblk m c 0 ⟨n + 1, h⟩) (iblk m c 1 ⟨n + 1, h⟩) (iblk m c 2 ⟨n + 1, h⟩) _ y).trans ?_
        show (outsAt0 m c n _).2.2 y + _ = _
        rw [ih.2]
        unfold focalTotal
        rw [Finset.sum_range_succ _ (n + 1), focalOf_of_lt m c (n + 1) h]
    · rw [outsAt0_B m c ⟨n + 1, h⟩ h0 h1]
      dsimp only
      refine ⟨?_, ?_⟩
      · refine (regTotal_mid (F := Ideal) c _ _ _ _ _ _ _ _ _ _ _ _ _ _ _ (iblk m c 0 ⟨n + 1, h⟩) (iblk m c 1 ⟨n + 1, h⟩) (iblk m c 2 ⟨n + 1, h⟩) _ _).trans ?_
        funext y
        refine (regStep_apply (iblk m c 0 ⟨n + 1, h⟩) (iblk m c 1 ⟨n + 1, h⟩) _ y).trans ?_
        show (outsAt0 m c n _).2.1 y + _ = _
        rw [ih.1]
        unfold errTotal
        rw [Finset.sum_range_succ _ (n + 1), errOf_of_lt m c (n + 1) h]
      · refine (focTotal_mid (F := Ideal) c _ _ _ _ _ _ _ _ _ _ _ _ _ _ _ (iblk m c 0 ⟨n + 1, h⟩) (iblk m c 1 ⟨n + 1, h⟩) (iblk m c 2 ⟨n + 1, h⟩) _ _).trans ?_
        funext y
        refine (focalStep_apply (iblk m c 0 ⟨n + 1, h⟩) (iblk m c 1 ⟨n + 1, h⟩) (iblk m c 2 ⟨n + 1, h⟩) _ y).trans ?_
        show (outsAt0 m c n _).2.2 y + _ = _
        rw [ih.2]
        unfold focalTotal
        rw [Finset.sum_range_succ _ (n + 1), focalOf_of_lt m c (n + 1) h]

/-- The kernel's loss: the squared-error total over the row count, plus the focal total, over all 512 blocks. -/
def loss (c : Dev nD) : EReal := Ideal.div (errTotal m c 511) (Ideal.ofBits .f32 0x4A000000#32) + focalTotal m c 511

end Cert.KernelIdeal.Totals

end
-- ==== Proof.FinalValue.lean ====
/-
  From the running totals to the program's result.  The last point, and only it, writes the result block
  back: the squared-error total divided by the row count plus the focal total.  The result array has one
  element, which that block covers; the reshape after the kernel hands the same number on as a scalar.
-/
import proofs.«105964_j37881611550866_1_alg».proof.Proof.Totals

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.KernelIdeal.Stored Cert.KernelIdeal.BlockValues Cert.LossSpec

variable (m : (ℓ : Loc nD τ sig) → Buf (Elt Ideal) ℓ) (ρ : Dev nD → PrngReg)
/-- The last point stores the loss into the result block: the totals over all blocks up to it. -/
theorem result_block (c : Dev nD) (n : ℕ) (h : n + 1 < cfg0.N) (hlast : (n + 1) % 512 = 511) :
    (outsAt0 m c (n + 1) h).1
      = fun _ => Ideal.div (errTotal m c (n + 1)) (Ideal.ofBits .f32 0x4A000000#32) + focalTotal m c (n + 1) := by
  have hN : cfg0.N = 512 := N_0
  have h0 : ¬(⟨n + 1, h⟩ : Fin cfg0.N).val % 512 = 0 := by dsimp only; omega
  have h1 : (⟨n + 1, h⟩ : Fin cfg0.N).val % 512 = 511 := hlast
  have ih := totals m c n (Nat.lt_of_succ_lt h)
  rw [outsAt0_C m c ⟨n + 1, h⟩ h0 h1]
  dsimp only
  refine (result_last (F := Ideal) c _ _ _ _ _ _ _ _ _ _ _ _ _ _ _ (iblk m c 0 ⟨n + 1, h⟩) (iblk m c 1 ⟨n + 1, h⟩) (iblk m c 2 ⟨n + 1, h⟩) _ _).trans ?_
  funext y
  refine (result_apply _ _ y).trans ?_
  refine congrArg₂ (fun a b => Ideal.div a (Ideal.ofBits .f32 0x4A000000#32) + b) ?_ ?_
  · refine (regStep_apply (iblk m c 0 ⟨n + 1, h⟩) (iblk m c 1 ⟨n + 1, h⟩) _ y).trans ?_
    show (outsAt0 m c n _).2.1 y + _ = _
    rw [ih.1]
    unfold errTotal
    rw [Finset.sum_range_succ _ (n + 1), errOf_of_lt m c (n + 1) h]
  · refine (focalStep_apply (iblk m c 0 ⟨n + 1, h⟩) (iblk m c 1 ⟨n + 1, h⟩) (iblk m c 2 ⟨n + 1, h⟩) _ y).trans ?_
    show (outsAt0 m c n _).2.2 y + _ = _
    rw [ih.2]
    unfold focalTotal
    rw [Finset.sum_range_succ _ (n + 1), focalOf_of_lt m c (n + 1) h]

/-- The one write-back, at the last point, writes the loss: every element of the block is that number. -/
theorem flushed_eq (c : Dev nD) (t : Fin cfg0.N) (hf : (cfg0.win 3).flush t = true) :
    (dats m 0 c).flushed 3 t = ((cfg0.win 3).blk t).view.read (Elt Ideal) (fun _ => loss m c) := by
  have hN : cfg0.N = 512 := N_0
  have h3 : t.val % 512 = 511 := (flush0_3 t).mp hf
  obtain ⟨n, hn⟩ := t
  obtain ⟨k, rfl⟩ : ∃ k, n = k + 1 := ⟨n - 1, by dsimp only at h3; omega⟩
  have hk : k + 1 = 511 := by dsimp only at h3; omega
  funext y
  rw [View.read_apply]
  show (cfg0.win 3).cut (grid0.coords ⟨k + 1, hn⟩) ((dats m 0 c).after 3 ⟨k + 1, hn⟩) y = loss m c
  rw [after0_3, result_block m c k hn h3]
  show Ideal.div (errTotal m c (k + 1)) (Ideal.ofBits .f32 0x4A000000#32) + focalTotal m c (k + 1) = loss m c
  unfold loss
  rw [hk]

/-- The last grid point. -/
abbrev tLast : Fin cfg0.N := ⟨511, by rw [show cfg0.N = 512 from N_0]; decide⟩

/-- So the one-element result array ends holding the loss: the last point's block covers it. -/
theorem final_result (c : Dev nD) : (dats m 0 c).arrAt 3 cfg0.N = fun _ => loss m c :=
  (dats m 0 c).arrAt_eq_of_cover 3 (fun _ => loss m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The reshape after the kernel hands the one element on as a scalar. -/
theorem tail_eq (c : Dev nD) :
    Pipeline.afterTail₀ cfgs (dats m) 0 (V0 m) [hostOps1] c main_v1 = fun _ => loss m c := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.tc.devRef main_v0)
      = fun _ => loss m c :=
    (Pipeline.withArrays_arr spec0 launch0.win.arr_inj c _ _ 3).trans (final_result m c)
  rw [hw]
  rfl

/-- The result buffer is unscoped and is no window's array, so the frame run reads it after the tail. -/
theorem result_mem : main_v1 ∈ Pipeline.restRefs sig (cfgs 0).spec :=
  Pipeline.mem_restRefs_of main_v1 rfl (fun w => by fin_cases w <;> decide)

/-- The kernel's run, read: the result at the loss, the three arguments unchanged. -/
theorem run : θ_run defs (onTc (τ := τ) (main (F := Ideal))) ⟨m, fun _ => 0, ρ⟩ fun r => ∀ c : Dev nD,
      r.2.mem ((c.tc : Thread nD τ).loc main_v1) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v1 result_mem).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Totals

end
-- ==== Proof.BlockRows.lean ====
/-
  The blocks the grid reads, as rows of the argument arrays.  Window 0 and window 1 step through the
  output and the target 4096 rows at a time: point `t`'s block is rows `4096·t … 4096·t + 4095`, all
  sixteen columns.  Window 2 is the whole class-weight vector at every point.  So the kernel's loss is
  the blocked arrangement of the loss of its three arguments.
-/
import proofs.«105964_j37881611550866_1_alg».proof.Proof.Totals

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.KernelIdeal.Stored Cert.KernelIdeal.BlockValues Cert.LossSpec

variable (m : (ℓ : Loc nD τ sig) → Buf (Elt Ideal) ℓ)

/-- The index maps, decided once over the grid: the row-block index is the point, the column-block index zero. -/
theorem index_out : ∀ t : Fin cfg0.N, win0_0.index t 0 = t.val ∧ win0_0.index t 1 = 0 :=
  (by decide +kernel : ∀ t : Fin grid0.N, win0_0.index t 0 = t.val ∧ win0_0.index t 1 = 0)
theorem index_tgt : ∀ t : Fin cfg0.N, win0_1.index t 0 = t.val ∧ win0_1.index t 1 = 0 :=
  (by decide +kernel : ∀ t : Fin grid0.N, win0_1.index t 0 = t.val ∧ win0_1.index t 1 = 0)
theorem index_wts : ∀ t : Fin cfg0.N, win0_2.index t 0 = 0 :=
  (by decide +kernel : ∀ t : Fin grid0.N, win0_2.index t 0 = 0)

/-- Point `t`'s output block is rows `4096·t …` of the output. -/
theorem outBlock_eq (c : Dev nD) (t : Fin cfg0.N) (ht : t.val < 512) :
    (iblk m c 0 t : Vec Ideal S4096x16 .f32) = rowBlock (m ((c.tc : Thread nD τ).loc main_arg0)) ⟨t.val, ht⟩ := by
  funext j
  unfold iblk rowBlock
  rw [View.read_apply]
  show V m c main_arg0 _ = m ((c.tc : Thread nD τ).loc main_arg0) _
  refine congrArg (m ((c.tc : Thread nD τ).loc main_arg0)) (funext fun a => Fin.ext ?_)
  match a with
  | ⟨0, _⟩ => show win0_0.index t 0 * 4096 + 1 * (j 0).val = 4096 * t.val + (j 0).val
              rw [(index_out t).1]; omega
  | ⟨1, _⟩ => show win0_0.index t 1 * 16 + 1 * (j 1).val = (j 1).val
              rw [(index_out t).2]; omega

/-- Point `t`'s target block is rows `4096·t …` of the target. -/
theorem tgtBlock_eq (c : Dev nD) (t : Fin cfg0.N) (ht : t.val < 512) :
    (iblk m c 1 t : Vec Ideal S4096x16 .f32) = rowBlock (m ((c.tc : Thread nD τ).loc main_arg1)) ⟨t.val, ht⟩ := by
  funext j
  unfold iblk rowBlock
  rw [View.read_apply]
  show V m c main_arg1 _ = m ((c.tc : Thread nD τ).loc main_arg1) _
  refine congrArg (m ((c.tc : Thread nD τ).loc main_arg1)) (funext fun a => Fin.ext ?_)
  match a with
  | ⟨0, _⟩ => show win0_1.index t 0 * 4096 + 1 * (j 0).val = 4096 * t.val + (j 0).val
              rw [(index_tgt t).1]; omega
  | ⟨1, _⟩ => show win0_1.index t 1 * 16 + 1 * (j 1).val = (j 1).val
              rw [(index_tgt t).2]; omega

/-- Every point's weight block is the whole class-weight vector. -/
theorem wtsBlock_eq (c : Dev nD) (t : Fin cfg0.N) :
    (iblk m c 2 t : Vec Ideal S13 .f32) = m ((c.tc : Thread nD τ).loc main_arg2) := by
  funext j
  unfold iblk
  rw [View.read_apply]
  show V m c main_arg2 _ = m ((c.tc : Thread nD τ).loc main_arg2) _
  refine congrArg (m ((c.tc : Thread nD τ).loc main_arg2)) (funext fun a => Fin.ext ?_)
  match a with
  | ⟨0, _⟩ => show win0_2.index t 0 * 13 + 1 * (j 0).val = (j 0).val
              rw [index_wts t]; omega

/-- The kernel's loss is the blocked arrangement of the loss of its three arguments. -/
theorem loss_eq (c : Dev nD) :
    loss m c = lossBlocked (m ((c.tc : Thread nD τ).loc main_arg0)) (m ((c.tc : Thread nD τ).loc main_arg1))
      (m ((c.tc : Thread nD τ).loc main_arg2)) := by
  have hN : cfg0.N = 512 := N_0
  unfold loss lossBlocked
  refine congrArg₂ (fun a b => Ideal.div a (Ideal.ofBits .f32 0x4A000000#32) + b) ?_ ?_
  · show ∑ s ∈ Finset.range 512, errOf m c s = _
    refine (Finset.sum_range _).trans (Finset.sum_congr rfl fun t _ => ?_)
    rw [errOf_of_lt m c t.val (by rw [hN]; exact t.isLt)]
    exact congrArg₂ blockErr (outBlock_eq m c ⟨t.val, _⟩ t.isLt) (tgtBlock_eq m c ⟨t.val, _⟩ t.isLt)
  · show ∑ s ∈ Finset.range 512, focalOf m c s = _
    refine (Finset.sum_range _).trans (Finset.sum_congr rfl fun t _ => ?_)
    rw [focalOf_of_lt m c t.val (by rw [hN]; exact t.isLt)]
    exact congr (congrArg₂ blockFocal (outBlock_eq m c ⟨t.val, _⟩ t.isLt) (tgtBlock_eq m c ⟨t.val, _⟩ t.isLt))
      (wtsBlock_eq m c ⟨t.val, _⟩)

end Cert.KernelIdeal.Totals

end
-- ==== Proof.ReferenceValue.lean ====
/-
  The reference's result read at the extended reals.  Its three column means are each a sum of squared
  differences started from zero and divided by the row count; the first is weighted by ten and the three
  are added.  Its focal part is one sum, started from zero, over every entry of the thirteen presence
  columns, of the masked focal term with the logistic function spelled as a quotient and the square as a
  power with exponent two.  Together: the direct arrangement of the loss.
-/
import proofs.«105964_j37881611550866_1_alg».proof.Proof.Gen.ReferenceIdeal.Read
import proofs.«105964_j37881611550866_1_alg».proof.Proof.LossSpec

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LossSpec

/-- A one-element vector has one index. -/
theorem idx1_eq (a b : S1.Idx) : a = b := by
  rw [eq_ix1 a, eq_ix1 b]
  exact congrArg ix1 (Fin.ext (by have h1 : (a 0).val < 1 := (a 0).isLt; have h2 : (b 0).val < 1 := (b 0).isLt; omega))

/-- A one-element vector reshaped to a scalar holds the vector's element. -/
theorem cast_1_0 {α : Type} (v : S1.Idx → α) (h : S1.ShapeCasts S_) (i : S_.Idx) :
    shapeCast S_ v h i = v (ix1 (0 : Fin 1)) := by
  unfold shapeCast
  exact congrArg v (idx1_eq _ _)

/-- Column `j`'s mean squared error, as the reference computes it. -/
theorem colMean_read (O Tg : (⟨S2097152x16, .f32⟩ : BufTy).Contents (Elt Ideal)) (i : S3.Idx) (j : Fin 16)
    (hj : j.val = (i 0).val) : val_main_v6 (F := Ideal) O Tg i = colMean O Tg j := by
  rw [val_main_v6_apply, val_main_v4_apply, val_main_v5_apply, val_main_cst_0_apply, val_main_cst_apply]
  unfold colMean
  refine congrArg₂ (fun a b => Ideal.div (Ideal.ofBits .f32 0x00000000#32 + a) b) ?_ rfl
  refine Finset.sum_congr rfl fun ρ _ => ?_
  rw [val_main_v3_apply, val_main_v2_apply, val_main_v0_apply, val_main_v1_apply]
  have e0 : idx_main_v0 (idx_main_v4 i ρ) = ix2 ρ j :=
    funext fun a => Fin.ext (by match a with | ⟨0, _⟩ => rfl | ⟨1, _⟩ => exact hj.symm)
  have e1 : idx_main_v1 (idx_main_v4 i ρ) = ix2 ρ j :=
    funext fun a => Fin.ext (by match a with | ⟨0, _⟩ => rfl | ⟨1, _⟩ => exact hj.symm)
  rw [e0, e1]
  rfl

/-- One entry of the presence columns: the masked focal term in the reference's spelling. -/
theorem focal_read (O Tg : (⟨S2097152x16, .f32⟩ : BufTy).Contents (Elt Ideal)) (W : (⟨S13, .f32⟩ : BufTy).Contents (Elt Ideal))
    (j : S2097152x13.Idx) :
    val_main_v62 (F := Ideal) O Tg W j = focalPow (O (logitIdx j)) (Tg (logitIdx j)) (W (classIdx j)) := by
  have e16 : idx_main_v16 j = logitIdx j :=
    funext fun a => Fin.ext (by match a with | ⟨0, _⟩ => rfl | ⟨1, _⟩ => rfl)
  have e17 : idx_main_v17 j = logitIdx j :=
    funext fun a => Fin.ext (by match a with | ⟨0, _⟩ => rfl | ⟨1, _⟩ => rfl)
  have eW : idx_main_v56 (idx_main_call1_v0 j) = classIdx j :=
    funext fun a => Fin.ext (by match a with | ⟨0, _⟩ => rfl)
  have eW' : idx_main_v57 (idx_main_call1_v1 j) = classIdx j :=
    funext fun a => Fin.ext (by match a with | ⟨0, _⟩ => rfl)
  simp only [val_main_v16_apply, val_main_v17_apply, val_main_cst_2_apply, val_main_v18_apply, val_main_v19_apply, val_main_cst_3_apply, val_main_call0_v0_apply, val_main_call0_v1_apply, val_main_v20_apply, val_main_cst_4_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_cst_5_apply, val_main_v38_apply, val_main_v39_apply, val_main_cst_6_apply, val_main_v40_apply, val_main_v41_apply, val_main_v42_apply, val_main_cst_7_apply, val_main_v43_apply, val_main_v44_apply, val_main_cst_8_apply, val_main_v45_apply, val_main_v46_apply, val_main_v47_apply, val_main_v48_apply, val_main_cst_9_apply, val_main_v49_apply, val_main_v50_apply, val_main_cst_10_apply, val_main_v51_apply, val_main_v52_apply, val_main_v53_apply, val_main_cst_11_apply, val_main_v54_apply, val_main_v55_apply, val_main_v56_apply, val_main_v57_apply, val_main_cst_12_apply, val_main_v58_apply, val_main_v59_apply, val_main_call1_v0_apply, val_main_call1_v1_apply, val_main_v60_apply, val_main_v61_apply, val_main_cst_13_apply, val_main_call2_v0_apply, val_main_call2_v1_apply, val_main_v62_apply]
  simp only [e16, e17, eW, eW']
  rfl

/-- The reference's result is the direct arrangement of the loss. -/
theorem result_read (O Tg : (⟨S2097152x16, .f32⟩ : BufTy).Contents (Elt Ideal)) (W : (⟨S13, .f32⟩ : BufTy).Contents (Elt Ideal)) :
    val_main_v64 (F := Ideal) O Tg W = fun _ => lossDirect O Tg W := by
  funext i
  have h8 : val_main_v8 (F := Ideal) O Tg i = colMean O Tg 0 := by
    unfold val_main_v8
    rw [cast_1_0, val_main_v7_apply]
    exact colMean_read O Tg _ 0 rfl
  have h11 : val_main_v11 (F := Ideal) O Tg i = colMean O Tg 1 := by
    unfold val_main_v11
    rw [cast_1_0, val_main_v10_apply]
    exact colMean_read O Tg _ 1 rfl
  have h14 : val_main_v14 (F := Ideal) O Tg i = colMean O Tg 2 := by
    unfold val_main_v14
    rw [cast_1_0, val_main_v13_apply]
    exact colMean_read O Tg _ 2 rfl
  rw [val_main_v64_apply, val_main_v15_apply, val_main_v12_apply, val_main_v9_apply, val_main_cst_1_apply, h8, h11, h14,
    val_main_v63_apply, val_main_cst_14_apply]
  unfold lossDirect
  refine congrArg₂ (· + ·) rfl (congrArg₂ (· + ·) rfl (Finset.sum_congr rfl fun j _ => focal_read O Tg W j))

end Cert.ReferenceIdeal.RefValue

end
-- ==== Proof.FiniteInputs.lean ====
/-
  From the precondition to real numbers.  The precondition says of every entry `x` of the three inputs that
  `|x| < +∞`.  Over the extended reals `|x| = max x (-x)`, which is `+∞` at both infinities, so an entry
  that satisfies it is a real number.
-/
import proofs.«105964_j37881611550866_1_alg».proof.Pre_finite_inputs
import Idealize.ShloMosaic.PureOps.Ideal
import Idealize.ShloMosaic.Lib.ReduceAll
import Idealize.ShloMosaic.Lib.Affine
import Idealize.ShloMosaic.Lib.ValueIdx

noncomputable section

open Idealize.ShloMosaic Idealize.ShloMosaic.ValueIdx

namespace Cert.Pre_finite_inputs.Finite

open Cert.Pre_finite_inputs

variable [Facts]

instance : Subsingleton S_.Idx := ⟨fun a b => funext fun d => d.elim0⟩

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  have h2 : BitVec.ofBool (decide (max x (-x) < ⊤)) = 1#1 := h
  have hb : decide (max x (-x) < ⊤) = true := by
    cases hd : decide (max x (-x) < ⊤) with
    | true => rfl
    | false => rw [hd] at h2; exact absurd h2 (by decide)
  have h' : max x (-x) < ⊤ := of_decide_eq_true hb
  induction x using EReal.rec
  · exact absurd h' (by simp)
  · exact ⟨_, rfl⟩
  · exact absurd h' (by simp)

/-- Under the precondition every entry of the output and of the target is a real number. -/
theorem inputs_real (O Tg : FVec Ideal S2097152x16 .f32) (W : FVec Ideal S13 .f32)
    (h : fn (F := Ideal) O Tg W = fun _ => 1#1) :
    (∀ i, ∃ r : ℝ, O i = (r : EReal)) ∧ (∀ i, ∃ r : ℝ, Tg i = (r : EReal)) := by
  have h0 := congrFun h ix0
  dsimp only [fn] at h0
  have h1 := (IntOp.andi_eq_one.mp h0).1
  have hO := (IntOp.andi_eq_one.mp h1).1
  have hT := (IntOp.andi_eq_one.mp h1).2
  exact ⟨fun i => real_of_abs_lt (O i) (Host.reduce_andi_all _ _ _ _ ix0 hO i),
    fun i => real_of_abs_lt (Tg i) (Host.reduce_andi_all _ _ _ _ ix0 hT i)⟩

end Cert.Pre_finite_inputs.Finite

end
-- ==== Proof.lean ====
/-
  A weighted mean squared error on three regression columns plus a masked focal loss on thirteen presence
  columns, over 2097152 rows: the kernel against its reference, over the extended reals.

  The kernel walks the rows in 512 blocks of 4096.  It keeps two running totals — each block's weighted
  squared error `Σ_r (10·d₀² + d₁² + d₂²)`, and each block's masked focal terms summed down the rows and across
  the columns — and at the last block returns the first total divided by the row count plus the second.
  The reference divides each column's sum of squares by the row count before weighting, spells the logistic
  function as `1 / (1 + e^{-x})` and the square `(1 - p_t)²` as a power with exponent two, and sums all focal
  terms at once.

  Under the precondition every input entry is a real number.  Then all the sums are real, division by the row
  count distributes over them, a real number to the power two is its product with itself, and what remains
  between the two programs is a reordering of finite sums: the two results are one number.  The kernel's
  idealization rewrote nothing, so that conjunct is trivial; the three frames are the generated runs.
-/
import proofs.«105964_j37881611550866_1_alg».proof.Defs
import proofs.«105964_j37881611550866_1_alg».proof.Proof.Gen.Kernel
import proofs.«105964_j37881611550866_1_alg».proof.Proof.Gen.Kernel.Skeleton
import proofs.«105964_j37881611550866_1_alg».proof.Proof.Gen.Kernel.Launch
import proofs.«105964_j37881611550866_1_alg».proof.Proof.Gen.Kernel.Points
import proofs.«105964_j37881611550866_1_alg».proof.Proof.Gen.Kernel.Frame
import proofs.«105964_j37881611550866_1_alg».proof.Proof.Gen.KernelIdeal
import proofs.«105964_j37881611550866_1_alg».proof.Proof.Gen.KernelIdeal.Skeleton
import proofs.«105964_j37881611550866_1_alg».proof.Proof.Gen.KernelIdeal.Launch
import proofs.«105964_j37881611550866_1_alg».proof.Proof.Gen.KernelIdeal.Points
import proofs.«105964_j37881611550866_1_alg».proof.Proof.Gen.KernelIdeal.Frame
import proofs.«105964_j37881611550866_1_alg».proof.Proof.Gen.ReferenceIdeal
import proofs.«105964_j37881611550866_1_alg».proof.Proof.Gen.ReferenceIdeal.Run
import proofs.«105964_j37881611550866_1_alg».proof.Proof.Gen.ReferenceIdeal.Read
import proofs.«105964_j37881611550866_1_alg».proof.Proof.Gen.Pre_finite_inputs
import proofs.«105964_j37881611550866_1_alg».proof.Proof.FinalValue
import proofs.«105964_j37881611550866_1_alg».proof.Proof.BlockRows
import proofs.«105964_j37881611550866_1_alg».proof.Proof.ReferenceValue
import proofs.«105964_j37881611550866_1_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments, the kernel ends at the blocked arrangement of the loss and the
    reference at the direct one: the same number. -/
theorem algebraic : Cert.algebraic_KernelIdeal_ReferenceIdeal := by
  intro m ρ m' ρ' hpre hagree
  refine ⟨fun c => fun _ => Cert.KernelIdeal.Totals.loss m c, Cert.KernelIdeal.Totals.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.RefValue.result_read, (hagree c).1, (hagree c).2.1,
    (hagree c).2.2]
  funext i
  show Cert.LossSpec.lossDirect _ _ _ = Cert.KernelIdeal.Totals.loss m c
  rw [Cert.KernelIdeal.Totals.loss_eq]
  obtain ⟨hO, hT⟩ := Cert.Pre_finite_inputs.Finite.inputs_real _ _ _ (hpre c)
  exact (Cert.LossSpec.lossBlocked_eq_lossDirect _ _ _ hO hT).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
